-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S64x4096 .f32) (main_arg3 : FVec F S4096x64 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S8192x4096 : Shape := ⟨2, ![8192, 4096]⟩
abbrev S512x4096 : Shape := ⟨2, ![512, 4096]⟩
abbrev S512x64 : Shape := ⟨2, ![512, 64]⟩
abbrev S4096 : Shape := ⟨1, ![4096]⟩
abbrev S1024x4096 : Shape := ⟨2, ![1024, 4096]⟩
abbrev S1024x64 : Shape := ⟨2, ![1024, 64]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S8192x4096, .f32⟩
  | .hbm, ⟨5, _⟩ => ⟨S8192x4096, .f32⟩
  | .hbm, ⟨6, _⟩ => ⟨S4x2048x4096, .f32⟩
  | .hbm, ⟨7, _⟩ => ⟨S4096, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S4096x64, .f32⟩
  | .local _ .vmem, ⟨4, _⟩ => ⟨S512x4096, .f32⟩
  | .local _ .vmem, ⟨5, _⟩ => ⟨S512x4096, .f32⟩
  | .local _ .vmem, ⟨6, _⟩ => ⟨S1024x4096, .f32⟩
  | .local _ .vmem, ⟨7, _⟩ => ⟨S1024x4096, .f32⟩
  | .local _ .vmem, ⟨8, _⟩ => ⟨S1024x64, .f32⟩
  | .local _ .vmem, ⟨9, _⟩ => ⟨S1024x64, .f32⟩
  | .local _ .vmem, ⟨10, _⟩ => ⟨S64x4096, .f32⟩
  | .local _ .vmem, ⟨11, _⟩ => ⟨S1024, .f32⟩
  | .local _ .vmem, ⟨12, _⟩ => ⟨S1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S64x4096_S64x4096_0_0 : ∀ a, (![0, 0] : Fin 2 → Nat) a + S64x4096.size a ≤ S64x4096.size a
  h_S64x4096 : 0 < S64x4096.numel
  inb_S4096x64_S4096x64_0_0 : ∀ a, (![0, 0] : Fin 2 → Nat) a + S4096x64.size a ≤ S4096x64.size a
  h_S4096x64 : 0 < S4096x64.numel
  shapeCasts_S8192x4096_S4x2048x4096 : S8192x4096.ShapeCasts S4x2048x4096
  inb_S1024x4096_S1024x4096_0_0 : ∀ a, (![0, 0] : Fin 2 → Nat) a + S1024x4096.size a ≤ S1024x4096.size a
  h_S1024x4096 : 0 < S1024x4096.numel
  inb_S1024x64_S1024x64_0_0 : ∀ a, (![0, 0] : Fin 2 → Nat) a + S1024x64.size a ≤ S1024x64.size a
  h_S1024x64 : 0 < S1024x64.numel
  reduces_S1024x4096_S1024 : S1024x4096.Reduces [1] S1024
  inb_S1024_S1024_0 : ∀ a, (![0] : Fin 1 → Nat) a + S1024.size a ≤ S1024.size a
  h_S1024 : 0 < S1024.numel
  dot_S512x4096_S64x4096_S512x64_1_1_0_0_n_n_wf : DotDims.WF S512x4096 S64x4096 S512x64 [1] [1] [0] [0] [] []
  dot_S512x64_S4096x64_S512x4096_1_1_0_0_n_n_wf : DotDims.WF S512x64 S4096x64 S512x4096 [1] [1] [0] [0] [] []
  dot_S1024x64_S64x4096_S1024x4096_1_0_0_1_n_n_wf : DotDims.WF S1024x64 S64x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .f32 = 32 ∨ (Rect.block (s := S64x4096) S64x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S4096.size a
  hwx1_3 : ∀ i : grid1.Coords, EltTy.bits .f32 = 32 ∨ (Rect.block (s := S4096) S1024.size (cc1_transform_3 i) (hinb1_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S1024x64_S64x4096_S1024x4096_1_0_0_1_n_n : DotDims S1024x64 S64x4096 S1024x4096 where
  lhsContracting := [1]
  rhsContracting := [0]
  lhsNonContracting := [0]
  rhsNonContracting := [1]
  lhsBatch := []
  rhsBatch := []
  wf := dot_S1024x64_S64x4096_S1024x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S64x4096 : Shape := ⟨2, ![64, 4096]⟩
abbrev S4096x64 : Shape := ⟨2, ![4096, 64]⟩
abbrev S4x2048x64 : Shape := ⟨3, ![4, 2048, 64]⟩
abbrev S_ : Shape := ⟨0, ![]⟩
abbrev S4096 : Shape := ⟨1, ![4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S4x2048x64, .f32⟩
  | .hbm, ⟨5, _⟩ => ⟨S4x2048x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []
  dot_S4096x64_S64x4096_S4096x4096_1_0_0_1_n_n_wf : DotDims.WF S4096x64 S64x4096 S4096x4096 [1] [0] [0] [1] [] []

variable [Facts₀]

def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  What the two programs compute, entry by entry, on the extended reals.

  The inputs are an activation array x of shape [4, 2048, 4096], a frozen weight W of shape [4096, 4096] and the two
  low-rank factors A of shape [64, 4096] and B of shape [4096, 64]. There are two results.

  * The low-rank path. Each of the 4 · 2048 rows ξ of x (4096 numbers) is first projected onto the 64 rows of A,
    h_j = ∑_k ξ_k · A[j, k], and the 64 coefficients are then combined by the rows of B: entry o of the result's row is
    ∑_j h_j · B[o, j]. Nothing in this formula mentions how the rows are grouped, so it serves both for the array laid
    out as [4, 2048, ·] and for the same rows laid out as [8192, ·].

  * The row norms of the merged weight W + B·A: entry (o, i) of the merged weight is W[o, i] + ∑_j B[o, j] · A[j, i], and
    result o is the square root of the sum over i of its squares.

  Both programs compute the sums in exactly this grouping, so no law of the extended reals beyond reading each
  operation at an index is needed to compare them; in particular nothing has to be finite.
-/
import Idealize.ShloMosaic.PureOps.Ideal
import Idealize.ShloMosaic.Lib.ValueIdx

noncomputable section

open scoped BigOperators

namespace Cert.Dora

open Idealize.ShloMosaic Idealize.ShloMosaic.ValueIdx

/-- The low-rank path on one row `ξ` of the input, at output feature `o`: the row's 64 coefficients
    `∑_k ξ_k · A[j, k]` combined as `∑_j (…) · B[o, j]`. -/
def lowRank (A : (⟨2, ![64, 4096]⟩ : Shape).Idx → EReal) (B : (⟨2, ![4096, 64]⟩ : Shape).Idx → EReal)
    (ξ : Fin 4096 → EReal) (o : Fin 4096) : EReal :=
  ∑ j : Fin 64, (∑ k : Fin 4096, ξ k * A (ix2 j k)) * B (ix2 o j)

/-- The first result: entry (b, s, o) is the low-rank path on row (b, s) of `x` at feature `o`. -/
def loraOut (x : (⟨3, ![4, 2048, 4096]⟩ : Shape).Idx → EReal) (A : (⟨2, ![64, 4096]⟩ : Shape).Idx → EReal)
    (B : (⟨2, ![4096, 64]⟩ : Shape).Idx → EReal) : (⟨3, ![4, 2048, 4096]⟩ : Shape).Idx → EReal :=
  fun i => lowRank A B (fun k => x (ix3 (n0 := 4) (n1 := 2048) (n2 := 4096) (i 0) (i 1) k)) (i 2)

/-- Entry (o, i) of the merged weight `W + B·A`. -/
def merged (W : (⟨2, ![4096, 4096]⟩ : Shape).Idx → EReal) (A : (⟨2, ![64, 4096]⟩ : Shape).Idx → EReal)
    (B : (⟨2, ![4096, 64]⟩ : Shape).Idx → EReal) (o i : Fin 4096) : EReal :=
  W (ix2 o i) + ∑ j : Fin 64, B (ix2 o j) * A (ix2 j i)

/-- The norm of row `o` of the merged weight: the square root of the sum of the squares of its entries. -/
def rowNorm (W : (⟨2, ![4096, 4096]⟩ : Shape).Idx → EReal) (A : (⟨2, ![64, 4096]⟩ : Shape).Idx → EReal)
    (B : (⟨2, ![4096, 64]⟩ : Shape).Idx → EReal) (o : Fin 4096) : EReal :=
  Ideal.sqrt (∑ i : Fin 4096, merged W A B o i * merged W A B o i)

/-- The second result: the 4096 row norms. -/
def colNorm (W : (⟨2, ![4096, 4096]⟩ : Shape).Idx → EReal) (A : (⟨2, ![64, 4096]⟩ : Shape).Idx → EReal)
    (B : (⟨2, ![4096, 64]⟩ : Shape).Idx → EReal) : (⟨1, ![4096]⟩ : Shape).Idx → EReal :=
  fun r => rowNorm W A B (r 0)

end Cert.Dora

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.LoraTile.lean ====
/-
  One tile of the low-rank kernel.

  At a grid point the body loads 512 rows of the flattened input, all of A and all of B, and stores two matrix products
  in a row, each against a transposed right operand and each into a zero accumulator: first the 512 × 64 coefficients,
  then the 512 × 4096 outputs. Entry (p, q) of what it stores is therefore the low-rank path on row p of the tile at
  output feature q.
-/
import proofs.«167412_j4243427688518_2_alg».proof.Proof.Gen.KernelIdeal.Skeleton
import proofs.«167412_j4243427688518_2_alg».proof.Proof.Spec
import proofs.«167412_j4243427688518_2_alg».proof.Proof.LibIndexReads
import Idealize.ShloMosaic.Lib.Pipeline.Value

noncomputable section

open scoped BigOperators

namespace Cert.Dora.Tile

open Idealize.ShloMosaic Idealize.ShloMosaic.ValueIdx Cert.KernelIdeal Cert.KernelIdeal.Gen Cert.Dora

/-- Entry (p, q) of the stored tile: the coefficients of row p against A, combined by row q of B. -/
theorem lora_tile (x0 : Vec Ideal S512x4096 .f32) (x1 : Vec Ideal S64x4096 .f32) (x2 : Vec Ideal S4096x64 .f32)
    (p : Fin 512) (q : Fin 4096) :
    k0_pay1 (F := Ideal) x0 x1 x2 (ix2 p q) = lowRank x1 x2 (fun k => x0 (ix2 p k)) q := by
  unfold k0_pay1 lowRank
  dsimp only
  -- the outer product: over the 64 coefficients, against row q of B
  refine (Cert.Lib.IndexReads.matmul_nt_apply Facts₀.dot_S512x64_S4096x64_S512x4096_1_1_0_0_n_n_wf (some .fp32) _ x2 p q).trans ?_
  refine Finset.sum_congr rfl fun j _ => ?_
  -- the inner product: over the 4096 input features, row p of the tile against row j of A
  refine congrArg (· * x2 (ix2 q j)) ?_
  refine (Cert.Lib.IndexReads.matmul_nt_apply Facts₀.dot_S512x4096_S64x4096_S512x64_1_1_0_0_n_n_wf (some .fp32) _ x1 p j).trans ?_
  rw [shapeCast_self]

end Cert.Dora.Tile

end
-- ==== Proof.LoraArray.lean ====
/-
  The low-rank kernel's result array, whatever contents the region is entered with.

  The grid has 16 points; point t stages rows 512·t … 512·t + 511 of the flattened input together with all of A and all
  of B, and writes back rows 512·t … 512·t + 511 of the result. By the tile lemma each written row is the low-rank path
  on the same row of the flattened input, so every block is the restriction of one function of the whole arrays; the 16
  row blocks cover the 8192 rows, hence the array ends holding that function.
-/
import proofs.«167412_j4243427688518_2_alg».proof.Proof.Gen.KernelIdeal.Frame
import proofs.«167412_j4243427688518_2_alg».proof.Proof.LoraTile
import Idealize.ShloMosaic.Lib.Pipeline.Value

noncomputable section

open scoped BigOperators

namespace Cert.Dora.Lora

open Idealize.ShloMosaic Idealize.ShloMosaic.TcCoe Idealize.ShloMosaic.ValueIdx Idealize.SL.Sem
open Idealize.ShloMosaic.Pipeline (Dat)
open Cert.KernelIdeal Cert.KernelIdeal.Gen Cert.Dora

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: row `r` is the low-rank path on row `r` of the flattened input the
    region found, against the A and B it found. -/
def rowsOut (c : Dev nD) : S8192x4096.Idx → EReal := fun i =>
  lowRank (V c main_arg2 : S64x4096.Idx → EReal) (V c main_arg3 : S4096x64.Idx → EReal)
    (fun k => (V c main_v0 : S8192x4096.Idx → EReal) (ix2 (n0 := 8192) (n1 := 4096) (i 0) k)) (i 1)

/-- The block indices at point `t`: the input rows and the result rows move with `t`, A and B stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged input rows at point `t`: local row `p` is row `512·t + p` of the flattened input. -/
theorem rows_apply (c : Dev nD) (t : Fin cfg0.N) (y : S512x4096.Idx) (i : S8192x4096.Idx)
    (h0 : (i 0).val = t.val * 512 + (y 0).val) (h1 : (i 1).val = (y 1).val) :
    (iblk0 V c 0 t : Vec Ideal S512x4096 .f32) y = (V c main_v0 : S8192x4096.Idx → EReal) i := by
  obtain ⟨e0, e1, -⟩ := idx_facts t
  unfold iblk0
  rw [View.read_apply]
  show V c main_v0 _ = V c main_v0 _
  refine congrArg (V c main_v0) ?_
  funext a
  apply Fin.ext
  match a with
  | ⟨0, _⟩ => show win0_0.index t (0 : Fin 2) * 512 + 1 * (y 0).val = (i 0).val; rw [e0, h0]; omega
  | ⟨1, _⟩ => show win0_0.index t (1 : Fin 2) * 4096 + 1 * (y 1).val = (i 1).val; rw [e1, h1]; omega

/-- The staged A at every point is all of A. -/
theorem a_eq (c : Dev nD) (t : Fin cfg0.N) :
    (iblk0 V c 1 t : Vec Ideal S64x4096 .f32) = (V c main_arg2 : S64x4096.Idx → EReal) := by
  obtain ⟨-, -, e0, e1, -⟩ := idx_facts t
  funext y
  unfold iblk0
  rw [View.read_apply]
  show V c main_arg2 _ = V c main_arg2 y
  refine congrArg (V c main_arg2) ?_
  funext a
  apply Fin.ext
  match a with
  | ⟨0, _⟩ => show win0_1.index t (0 : Fin 2) * 64 + 1 * (y 0).val = (y 0).val; rw [e0]; omega
  | ⟨1, _⟩ => show win0_1.index t (1 : Fin 2) * 4096 + 1 * (y 1).val = (y 1).val; rw [e1]; omega

/-- The staged B at every point is all of B. -/
theorem b_eq (c : Dev nD) (t : Fin cfg0.N) :
    (iblk0 V c 2 t : Vec Ideal S4096x64 .f32) = (V c main_arg3 : S4096x64.Idx → EReal) := by
  obtain ⟨-, -, -, -, e0, e1, -⟩ := idx_facts t
  funext y
  unfold iblk0
  rw [View.read_apply]
  show V c main_arg3 _ = V c main_arg3 y
  refine congrArg (V c main_arg3) ?_
  funext a
  apply Fin.ext
  match a with
  | ⟨0, _⟩ => show win0_2.index t (0 : Fin 2) * 4096 + 1 * (y 0).val = (y 0).val; rw [e0]; omega
  | ⟨1, _⟩ => show win0_2.index t (1 : Fin 2) * 64 + 1 * (y 1).val = (y 1).val; rw [e1]; omega

/-- What point `t` writes back is block `t` of `rowsOut`. -/
theorem flushed_eq (c : Dev nD) (t : Fin cfg0.N) :
    (dat0 V c).flushed 3 t = ((cfg0.win 3).blk t).view.read (Elt Ideal) (rowsOut V c) := by
  show (cfg0.win 3).cut (grid0.coords t) ((dat0 V c).after 3 t) = _
  rw [after0_3]
  unfold out0_3
  rw [View.canon_unit_zero hz]
  simp only [View.ld_unit_zero (S := S512x4096) hz, View.ld_unit_zero (S := S64x4096) hz, View.ld_unit_zero (S := S4096x64) hz]
  obtain ⟨-, -, -, -, -, -, e0, e1⟩ := idx_facts t
  funext y
  obtain ⟨p, q, rfl⟩ : ∃ (p : Fin 512) (q : Fin 4096), y = ix2 p q := ⟨y 0, y 1, eq_ix2 y⟩
  rw [View.read_apply]
  show k0_pay1 (iblk0 V c 0 t) (iblk0 V c 1 t) (iblk0 V c 2 t) (ix2 p q) = rowsOut V c (((cfg0.win 3).blk t).view.emb (ix2 p q))
  rw [Tile.lora_tile, a_eq V c t, b_eq V c t]
  unfold rowsOut
  -- the written entry's place in the array: row 512·t + p, column q
  have hr : ((((cfg0.win 3).blk t).view.emb (ix2 p q)) 0).val = t.val * 512 + p.val := by
    show win0_3.index t (0 : Fin 2) * 512 + 1 * p.val = _; rw [e0]; omega
  have hq : ((((cfg0.win 3).blk t).view.emb (ix2 p q)) 1) = q := Fin.ext (by
    show win0_3.index t (1 : Fin 2) * 4096 + 1 * q.val = _; rw [e1]; omega)
  rw [hq]
  refine congrArg (fun ξ => lowRank _ _ ξ q) (funext fun k => ?_)
  exact rows_apply V c t (ix2 p k) _ hr rfl

/-- Row block `t` of the result array, by coordinates. -/
theorem mem_blk (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v1).slice (win0_3.rect t)).set ↔ _
  rw [View.set_slice_whole, Rect.mem_set_unit]
  exact Iff.rfl

/-- Every entry of the result array is in the block of the point its row falls in. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 4096 ≤ (i 1).val ∧ (i 1).val < win0_3.index t (1 : Fin 2) * 4096 + 4096
    rw [e1]; omega

/-- The result array after the region: `rowsOut` of the contents the region was entered with. -/
theorem array_eq (c : Dev nD) : (dat0 V c).arrAt 3 cfg0.N = rowsOut V c :=
  (dat0 V c).arrAt_eq_of_cover 3 (rowsOut V c) (fun t _ => flushed_eq V c t) cover

end Cert.Dora.Lora

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.NormTile.lean ====
/-
  One tile of the row-norm kernel.

  At a grid point the body loads 1024 rows of W, the same 1024 rows of B and all of A; it forms the plain product of the
  B rows with A into a zero accumulator, adds the W rows, squares, sums each row from zero and takes the square root.
  Entry r of what it stores is therefore the norm of row r of the tile's merged weight.
-/
import proofs.«167412_j4243427688518_2_alg».proof.Proof.Gen.KernelIdeal.Skeleton
import proofs.«167412_j4243427688518_2_alg».proof.Proof.Spec
import proofs.«167412_j4243427688518_2_alg».proof.Proof.LibPlainDot
import Idealize.ShloMosaic.PureOps.Ideal.Laws
import Idealize.ShloMosaic.Lib.Pipeline.Value

noncomputable section

open scoped BigOperators

namespace Cert.Dora.Tile

open Idealize.ShloMosaic Idealize.ShloMosaic.ValueIdx Cert.KernelIdeal Cert.KernelIdeal.Gen Cert.Dora

/-- Entry r of the stored tile: the root of the sum over i of the squares of `W[r, i] + ∑_j B[r, j] · A[j, i]`. -/
theorem norm_tile (x0 : Vec Ideal S1024x4096 .f32) (x1 : Vec Ideal S1024x64 .f32) (x2 : Vec Ideal S64x4096 .f32)
    (r : Fin 1024) :
    k1_pay1 (F := Ideal) x0 x1 x2 (ix1 r)
      = Ideal.sqrt (∑ i : Fin 4096, (x0 (ix2 r i) + ∑ j : Fin 64, x1 (ix2 r j) * x2 (ix2 j i))
          * (x0 (ix2 r i) + ∑ j : Fin 64, x1 (ix2 r j) * x2 (ix2 j i))) := by
  unfold k1_pay1
  dsimp only
  refine congrArg Ideal.sqrt ?_
  -- the sum along a row from the zero word is the sum over the row's 4096 entries
  refine (Ideal.multiReduction_add_single _ 0x00000000#32 Facts₀.reduces_S1024x4096_S1024 (.inl rfl) rfl (ix1 r)).trans ?_
  refine Finset.sum_congr (s₂ := (Finset.univ : Finset (Fin 4096))) rfl fun (i : Fin 4096) _ => ?_
  -- the row index with the summed coordinate put back is (r, i)
  have hl : Facts₀.reduces_S1024x4096_S1024.lift (ix1 r) i = ix2 r i :=
    funext fun a => Fin.ext (by match a with | ⟨0, _⟩ => rfl | ⟨1, _⟩ => rfl)
  rw [hl]
  -- the plain product of the B rows with A, read at (r, i)
  have hm := Cert.PlainDot.matmul_zero_apply dot_S1024x64_S64x4096_S1024x4096_1_0_0_1_n_n ⟨rfl, rfl, rfl, rfl, rfl, rfl⟩
    (some .fp32) x1 x2 r i
  -- the merged entry, and its square
  have hs := congrArg (fun s : EReal => x0 (ix2 r i) + s) hm
  exact congrArg₂ (fun a b : EReal => a * b) hs hs

end Cert.Dora.Tile

end
-- ==== Proof.NormArray.lean ====
/-
  The row-norm kernel's result array, whatever contents the region is entered with.

  The grid has 4 points; point t stages rows 1024·t … 1024·t + 1023 of W and of B together with all of A, and writes
  back entries 1024·t … 1024·t + 1023 of the result. By the tile lemma each written entry is the norm of the same row of
  the merged weight, so every block is the restriction of one function of the whole arrays; the 4 blocks cover the 4096
  entries, hence the array ends holding the row norms.
-/
import proofs.«167412_j4243427688518_2_alg».proof.Proof.Gen.KernelIdeal.Frame
import proofs.«167412_j4243427688518_2_alg».proof.Proof.NormTile
import Idealize.ShloMosaic.Lib.Pipeline.Value

noncomputable section

open scoped BigOperators

namespace Cert.Dora.Norm

open Idealize.ShloMosaic Idealize.ShloMosaic.TcCoe Idealize.ShloMosaic.ValueIdx Idealize.SL.Sem
open Idealize.ShloMosaic.Pipeline (Dat)
open Cert.KernelIdeal Cert.KernelIdeal.Gen Cert.Dora

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- What the region leaves in its result array: the row norms of the merged weight of the W, A and B it found. -/
def normsOut (c : Dev nD) : S4096.Idx → EReal :=
  colNorm (V c main_arg1 : S4096x4096.Idx → EReal) (V c main_arg2 : S64x4096.Idx → EReal) (V c main_arg3 : S4096x64.Idx → EReal)

/-- The block indices at point `t`: the rows of W, the rows of B and the result entries move with `t`, A stays whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = t.val :=
  (by decide +kernel : ∀ t : Fin grid1.N, _)

/-- The staged rows of W at point `t`: local row `r` is row `1024·t + r`. -/
theorem w_apply (c : Dev nD) (t : Fin cfg1.N) (y : S1024x4096.Idx) (i : S4096x4096.Idx)
    (h0 : (i 0).val = t.val * 1024 + (y 0).val) (h1 : (i 1).val = (y 1).val) :
    (iblk1 V c 0 t : Vec Ideal S1024x4096 .f32) y = (V c main_arg1 : S4096x4096.Idx → EReal) i := by
  obtain ⟨e0, e1, -⟩ := idx_facts t
  unfold iblk1
  rw [View.read_apply]
  show V c main_arg1 _ = V c main_arg1 _
  refine congrArg (V c main_arg1) ?_
  funext a
  apply Fin.ext
  match a with
  | ⟨0, _⟩ => show win1_0.index t (0 : Fin 2) * 1024 + 1 * (y 0).val = (i 0).val; rw [e0, h0]; omega
  | ⟨1, _⟩ => show win1_0.index t (1 : Fin 2) * 4096 + 1 * (y 1).val = (i 1).val; rw [e1, h1]; omega

/-- The staged rows of B at point `t`: local row `r` is row `1024·t + r`. -/
theorem b_apply (c : Dev nD) (t : Fin cfg1.N) (y : S1024x64.Idx) (i : S4096x64.Idx)
    (h0 : (i 0).val = t.val * 1024 + (y 0).val) (h1 : (i 1).val = (y 1).val) :
    (iblk1 V c 1 t : Vec Ideal S1024x64 .f32) y = (V c main_arg3 : S4096x64.Idx → EReal) i := by
  obtain ⟨-, -, e0, e1, -⟩ := idx_facts t
  unfold iblk1
  rw [View.read_apply]
  show V c main_arg3 _ = V c main_arg3 _
  refine congrArg (V c main_arg3) ?_
  funext a
  apply Fin.ext
  match a with
  | ⟨0, _⟩ => show win1_1.index t (0 : Fin 2) * 1024 + 1 * (y 0).val = (i 0).val; rw [e0, h0]; omega
  | ⟨1, _⟩ => show win1_1.index t (1 : Fin 2) * 64 + 1 * (y 1).val = (i 1).val; rw [e1, h1]; omega

/-- The staged A at every point is all of A. -/
theorem a_eq (c : Dev nD) (t : Fin cfg1.N) :
    (iblk1 V c 2 t : Vec Ideal S64x4096 .f32) = (V c main_arg2 : S64x4096.Idx → EReal) := by
  obtain ⟨-, -, -, -, e0, e1, -⟩ := idx_facts t
  funext y
  unfold iblk1
  rw [View.read_apply]
  show V c main_arg2 _ = V c main_arg2 y
  refine congrArg (V c main_arg2) ?_
  funext a
  apply Fin.ext
  match a with
  | ⟨0, _⟩ => show win1_2.index t (0 : Fin 2) * 64 + 1 * (y 0).val = (y 0).val; rw [e0]; omega
  | ⟨1, _⟩ => show win1_2.index t (1 : Fin 2) * 4096 + 1 * (y 1).val = (y 1).val; rw [e1]; omega

/-- What point `t` writes back is block `t` of `normsOut`. -/
theorem flushed_eq (c : Dev nD) (t : Fin cfg1.N) :
    (dat1 V c).flushed 3 t = ((cfg1.win 3).blk t).view.read (Elt Ideal) (normsOut V c) := by
  show (cfg1.win 3).cut (grid1.coords t) ((dat1 V c).after 3 t) = _
  rw [after1_3]
  unfold out1_3
  rw [View.canon_unit_zero hz1]
  simp only [View.ld_unit_zero (S := S1024x4096) hz2, View.ld_unit_zero (S := S1024x64) hz2, View.ld_unit_zero (S := S64x4096) hz2]
  obtain ⟨-, -, -, -, -, -, e0⟩ := idx_facts t
  funext y
  obtain ⟨r, rfl⟩ : ∃ r : Fin 1024, y = ix1 r := ⟨y 0, eq_ix1 y⟩
  rw [View.read_apply]
  show k1_pay1 (iblk1 V c 0 t) (iblk1 V c 1 t) (iblk1 V c 2 t) (ix1 r) = normsOut V c (((cfg1.win 3).blk t).view.emb (ix1 r))
  rw [Tile.norm_tile, a_eq V c t]
  unfold normsOut colNorm rowNorm merged
  -- the written entry's place in the array: entry 1024·t + r
  have ho : ((((cfg1.win 3).blk t).view.emb (ix1 r)) 0).val = t.val * 1024 + r.val := by
    show win1_3.index t (0 : Fin 1) * 1024 + 1 * r.val = _; rw [e0]; omega
  have hw : ∀ i : Fin 4096, (iblk1 V c 0 t : Vec Ideal S1024x4096 .f32) (ix2 r i)
      = (V c main_arg1 : S4096x4096.Idx → EReal) (ix2 (n0 := 4096) (n1 := 4096) ((((cfg1.win 3).blk t).view.emb (ix1 r)) 0) i) :=
    fun i => w_apply V c t (ix2 r i) _ ho rfl
  have hb : ∀ j : Fin 64, (iblk1 V c 1 t : Vec Ideal S1024x64 .f32) (ix2 r j)
      = (V c main_arg3 : S4096x64.Idx → EReal) (ix2 (n0 := 4096) (n1 := 64) ((((cfg1.win 3).blk t).view.emb (ix1 r)) 0) j) :=
    fun j => b_apply V c t (ix2 r j) _ ho rfl
  simp only [hw, hb]

/-- Block `t` of the result array, by coordinates. -/
theorem mem_blk (t : Fin cfg1.N) (i : S4096.Idx) :
    i ∈ ((cfg1.win 3).blk t).view.set ↔ ∀ a : Fin 1, win1_3.index t a * S1024.size a ≤ (i a).val
      ∧ (i a).val < win1_3.index t a * S1024.size a + S1024.size a := by
  show i ∈ ((View.whole main_v3).slice (win1_3.rect t)).set ↔ _
  rw [View.set_slice_whole, Rect.mem_set_unit]
  exact Iff.rfl

/-- Every entry of the result array is in the block of the point it falls in. -/
theorem cover (i : S4096.Idx) : ∃ t : Fin cfg1.N, (cfg1.win 3).flush t = true ∧ i ∈ ((cfg1.win 3).blk t).view.set := by
  have hi0 : (i 0).val < 4096 := (i 0).isLt
  have hN : cfg1.N = 4 := N_1
  obtain ⟨t, ht⟩ : ∃ t : Fin cfg1.N, t.val = (i 0).val / 1024 := ⟨⟨(i 0).val / 1024, by rw [hN]; omega⟩, rfl⟩
  obtain ⟨-, -, -, -, -, -, e0⟩ := idx_facts t
  refine ⟨t, flush1_3 t, ?_⟩
  rw [mem_blk]
  intro a
  match a with
  | ⟨0, _⟩ =>
    show win1_3.index t (0 : Fin 1) * 1024 ≤ (i 0).val ∧ (i 0).val < win1_3.index t (0 : Fin 1) * 1024 + 1024
    rw [e0, ht]; omega

/-- The result array after the region: the row norms of the merged weight the region found. -/
theorem array_eq (c : Dev nD) : (dat1 V c).arrAt 3 cfg1.N = normsOut V c :=
  (dat1 V c).arrAt_eq_of_cover 3 (normsOut V c) (fun t _ => flushed_eq V c t) cover

end Cert.Dora.Norm

end
-- ==== Proof.KernelRun.lean ====
/-
  The kernel program's run, with its two results read.

  The program is four segments: the input regrouped from [4, 2048, ·] into 8192 rows; the low-rank region on those
  rows; its result regrouped back into [4, 2048, ·]; the row-norm region. After the last segment every buffer that
  outlives the regions holds the contents the segments' fold gives it. Read through that fold, the first result is the
  regrouping of the low-rank region's row array — the low-rank path on row (b, s) of x, since row 2048·b + s of the
  regrouped input IS row (b, s) — and the second is the row-norm region's array, entered with W, A and B as launched.
-/
import proofs.«167412_j4243427688518_2_alg».proof.Proof.Gen.KernelIdeal.Frame
import proofs.«167412_j4243427688518_2_alg».proof.Proof.LoraArray
import proofs.«167412_j4243427688518_2_alg».proof.Proof.NormArray
import Idealize.ShloMosaic.Lib.StableHlo.Run

set_option maxRecDepth 16384

noncomputable section

open scoped BigOperators

namespace Cert.Dora.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.Dora

local notation "𝕄" => MT nD τ sig Unit (Elt Ideal) ℕ (UR sig nD τ) ℕ

variable (m : (ℓ : Loc nD τ sig) → Buf (Elt Ideal) ℓ) (ρ : Dev nD → PrngReg)

/-! ## The run, to the last boundary -/

set_option backward.isDefEq.respectTransparency.types false in
/-- Every weakly fair execution ends, nothing faulting, with every buffer that outlives the regions at the contents the
    last boundary of the segments' fold names. -/
theorem run_boundary : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## What each region is entered with -/

/-- The low-rank region finds the input regrouped into 8192 rows, -/
theorem entry_rows (c : Dev nD) : (V1 m ρ c main_v0 : S8192x4096.Idx → EReal)
    = shapeCast S8192x4096 (m ((c : Thread nD τ).loc main_arg0) : S4x2048x4096.Idx → EReal) Facts₀.shapeCasts_S4x2048x4096_S8192x4096 := by
  show StableHlo.after hostOps0 (W0 m ρ c) (Proc.devRef .tc main_v0) = _
  after_results
  rfl

/-- and A and B as launched. -/
theorem entry_a0 (c : Dev nD) : V1 m ρ c main_arg2 = m ((c : Thread nD τ).loc main_arg2) := by
  show StableHlo.after hostOps0 (W0 m ρ c) (Proc.devRef .tc main_arg2) = _
  after_results
theorem entry_b0 (c : Dev nD) : V1 m ρ c main_arg3 = m ((c : Thread nD τ).loc main_arg3) := by
  show StableHlo.after hostOps0 (W0 m ρ c) (Proc.devRef .tc main_arg3) = _
  after_results

/-- The row-norm region finds W, A and B as launched: each is an input of that region, so what the region leaves of it
    is what it found, and what it leaves is the launch contents. -/
theorem entry_w1 (c : Dev nD) : V3 m ρ c main_arg1 = m ((c : Thread nD τ).loc main_arg1) :=
  ((W4_arr m ρ c 0).trans (((dat1 (V3 m ρ) c).arrAt_in 0 rfl _).trans (A_eq1 (V3 m ρ) c 0))).symm.trans (W4_main_arg1 m ρ c)
theorem entry_a1 (c : Dev nD) : V3 m ρ c main_arg2 = m ((c : Thread nD τ).loc main_arg2) :=
  ((W4_arr m ρ c 2).trans (((dat1 (V3 m ρ) c).arrAt_in 2 rfl _).trans (A_eq1 (V3 m ρ) c 2))).symm.trans (W4_main_arg2 m ρ c)
theorem entry_b1 (c : Dev nD) : V3 m ρ c main_arg3 = m ((c : Thread nD τ).loc main_arg3) :=
  ((W4_arr m ρ c 1).trans (((dat1 (V3 m ρ) c).arrAt_in 1 rfl _).trans (A_eq1 (V3 m ρ) c 1))).symm.trans (W4_main_arg3 m ρ c)

/-! ## The two results at the last boundary -/

/-- The first result: entry (b, s, o) is the low-rank path on row (b, s) of x. -/
theorem out_lora (c : Dev nD) : (W4 m ρ c (Proc.devRef .tc main_v2) : S4x2048x4096.Idx → EReal)
    = loraOut (m ((c : Thread nD τ).loc main_arg0)) (m ((c : Thread nD τ).loc main_arg2)) (m ((c : Thread nD τ).loc main_arg3)) := by
  -- the row-norm region does not touch it; the regrouping wrote it from the low-rank region's row array
  have h1 : W4 m ρ c (Proc.devRef .tc main_v2) = W3 m ρ c (Proc.devRef .tc main_v2) := W4_of_ne m ρ c main_v2 (by decide)
  have h2 : (W3 m ρ c (Proc.devRef .tc main_v2) : S4x2048x4096.Idx → EReal)
      = shapeCast S4x2048x4096 (W2 m ρ c (Proc.devRef .tc main_v1) : S8192x4096.Idx → EReal) Facts₀.shapeCasts_S8192x4096_S4x2048x4096 := by
    show StableHlo.after hostOps1 (W2 m ρ c) (Proc.devRef .tc main_v2) = _
    after_results
    rfl
  have h3 : (W2 m ρ c (Proc.devRef .tc main_v1) : S8192x4096.Idx → EReal) = Lora.rowsOut (V1 m ρ) c :=
    (W2_arr m ρ c 3).trans (Lora.array_eq (V1 m ρ) c)
  rw [h1, h2, h3]
  funext i
  obtain ⟨b, s, o, rfl⟩ : ∃ (b : Fin 4) (s : Fin 2048) (o : Fin 4096), i = ix3 b s o := ⟨i 0, i 1, i 2, eq_ix3 i⟩
  -- entry (b, s, o) of the regrouped array is entry (2048·b + s, o) of the row array
  have hq : b.val * 2048 + s.val < 8192 := by have := b.isLt; have := s.isLt; omega
  rw [Cert.Lib.IndexReads.unflatten_apply _ _ ⟨b.val * 2048 + s.val, hq⟩ b s o rfl]
  unfold Lora.rowsOut loraOut
  rw [entry_a0, entry_b0, entry_rows]
  -- and row 2048·b + s of the regrouped input is row (b, s) of x
  refine congrArg (fun ξ => lowRank _ _ ξ o) (funext fun k => ?_)
  exact Cert.Lib.IndexReads.flatten_apply _ _ ⟨b.val * 2048 + s.val, hq⟩ b s k rfl

/-- The second result: the row norms of the merged weight. -/
theorem out_norm (c : Dev nD) : (W4 m ρ c (Proc.devRef .tc main_v3) : S4096.Idx → EReal)
    = colNorm (m ((c : Thread nD τ).loc main_arg1)) (m ((c : Thread nD τ).loc main_arg2)) (m ((c : Thread nD τ).loc main_arg3)) := by
  have h : (W4 m ρ c (Proc.devRef .tc main_v3) : S4096.Idx → EReal) = Norm.normsOut (V3 m ρ) c :=
    (W4_arr m ρ c 3).trans (Norm.array_eq (V3 m ρ) c)
  rw [h]
  unfold Norm.normsOut
  rw [entry_w1, entry_a1, entry_b1]

/-! ## The run, read -/

/-- Every weakly fair execution of the kernel program ends, nothing faulting, with the first result at the low-rank
    path of the launched x, A, B, the second at the row norms of the merged weight of the launched W, A, B, and the
    arguments as launched. -/
theorem run : θ_run defs (onTc (τ := τ) (main (F := Ideal))) ⟨m, fun _ => 0, ρ⟩ (fun r => ∀ c : Dev nD,
      r.2.mem ((c.tc : Thread nD τ).loc main_v2)
        = loraOut (m ((c : Thread nD τ).loc main_arg0)) (m ((c : Thread nD τ).loc main_arg2)) (m ((c : Thread nD τ).loc main_arg3))
      ∧ r.2.mem ((c.tc : Thread nD τ).loc main_v3)
        = colNorm (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v2 (by decide))).trans (out_lora m ρ c),
       (h c _ (mem_uc main_v3 (by decide))).trans (out_norm m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_boundary m ρ)

end Cert.Dora.Run

end
-- ==== Proof.RefSpec.lean ====
/-
  The reference computes the specification.

  Its first result is two contractions in a row: over the 4096 input features against A, then over the 64 coefficients
  against B — the low-rank path on each row. Its second result is the contraction of B with A, added to W, squared,
  summed along each row from zero, and square-rooted — the row norm of the merged weight. Each operation is read at an
  index, the indices the reading produces are identified with the coordinates the specification is written over, and the
  two sides coincide.
-/
import proofs.«167412_j4243427688518_2_alg».proof.Proof.Gen.ReferenceIdeal.Read
import proofs.«167412_j4243427688518_2_alg».proof.Proof.Spec

noncomputable section

open scoped BigOperators

namespace Cert.Dora.Ref

open Idealize.ShloMosaic Idealize.ShloMosaic.ValueIdx Cert.ReferenceIdeal Cert.ReferenceIdeal.Read Cert.Dora

/-- The reference's first result is the low-rank path on every row. -/
theorem lora_eq (x : (⟨S4x2048x4096, .f32⟩ : BufTy).Contents (Elt Ideal)) (A : (⟨S64x4096, .f32⟩ : BufTy).Contents (Elt Ideal))
    (B : (⟨S4096x64, .f32⟩ : BufTy).Contents (Elt Ideal)) :
    val_main_v1 (F := Ideal) x A B = loraOut x A B := by
  funext i
  rw [val_main_v1_apply]
  unfold loraOut lowRank
  refine Finset.sum_congr rfl fun j _ => ?_
  rw [val_main_v0_apply]
  -- the row read by the inner contraction is row (b, s) of x, against row j of A; the outer factor is B[o, j]
  have ex : ∀ k : Fin 4096, lidx_main_v0 (lidx_main_v1 i j) k = ix3 (n0 := 4) (n1 := 2048) (n2 := 4096) (i 0) (i 1) k :=
    fun k => funext fun a => by match a with | ⟨0, _⟩ => rfl | ⟨1, _⟩ => rfl | ⟨2, _⟩ => rfl
  have ea : ∀ k : Fin 4096, ridx_main_v0 (lidx_main_v1 i j) k = ix2 j k :=
    fun k => funext fun a => by match a with | ⟨0, _⟩ => rfl | ⟨1, _⟩ => rfl
  have eb : ridx_main_v1 i j = ix2 (n0 := 4096) (n1 := 64) (i 2) j :=
    funext fun a => by match a with | ⟨0, _⟩ => rfl | ⟨1, _⟩ => rfl
  simp only [ex, ea, eb]

/-- The reference's second result is the row norms of the merged weight. -/
theorem norm_eq (W : (⟨S4096x4096, .f32⟩ : BufTy).Contents (Elt Ideal)) (A : (⟨S64x4096, .f32⟩ : BufTy).Contents (Elt Ideal))
    (B : (⟨S4096x64, .f32⟩ : BufTy).Contents (Elt Ideal)) :
    val_main_v6 (F := Ideal) W A B = colNorm W A B := by
  funext r
  rw [val_main_v6_apply, val_main_v5_apply, val_main_cst_apply]
  unfold colNorm rowNorm
  rw [Ideal.hostUnary_sqrt_def, Ideal.ofBits_def, Ideal.ofBits_zero_f32, zero_add]
  refine congrArg Ideal.sqrt (Finset.sum_congr rfl fun i _ => ?_)
  rw [val_main_v4_apply, val_main_v3_apply, val_main_v2_apply, Ideal.mulf_def, Ideal.addf_def]
  unfold merged
  -- the summed entry is (o, i); the contraction of B with A reads B[o, j] and A[j, i]
  have ew : idx_main_v5 r i = ix2 (n0 := 4096) (n1 := 4096) (r 0) i :=
    funext fun a => by match a with | ⟨0, _⟩ => rfl | ⟨1, _⟩ => rfl
  have eb : ∀ j : Fin 64, lidx_main_v2 (idx_main_v5 r i) j = ix2 (n0 := 4096) (n1 := 64) (r 0) j :=
    fun j => funext fun a => by match a with | ⟨0, _⟩ => rfl | ⟨1, _⟩ => rfl
  have ea : ∀ j : Fin 64, ridx_main_v2 (idx_main_v5 r i) j = ix2 j i :=
    fun j => funext fun a => by match a with | ⟨0, _⟩ => rfl | ⟨1, _⟩ => rfl
  simp only [ew, eb, ea]

end Cert.Dora.Ref

end
-- ==== Proof.lean ====
/-
  The kernel program against its reference, on the extended reals.

  The programs take an activation array x [4, 2048, 4096], a frozen weight W [4096, 4096] and low-rank factors A [64, 4096]
  and B [4096, 64], and return (1) the low-rank path applied to every row of x — the row's 64 coefficients against A,
  combined by the rows of B — and (2) the norm of every row of the merged weight W + B·A (Proof/Spec.lean).

  The kernel program regroups x into 8192 rows, runs a tiled kernel on 16 blocks of 512 rows (two matrix products in a
  row per block), regroups the result back, and runs a second tiled kernel on 4 blocks of 1024 rows of W and B (a
  matrix product, an addition, a square, a row sum and a square root per block). The reference computes the same two
  formulas with whole-array contractions. Both sides group every sum in the same way, so they agree entry by entry on
  the extended reals without any appeal to finiteness: the precondition is not used by the comparison.

  The frames of the two kernel programs and the launch-side proof data are the generated ones; the reference's frame
  is its generated run with the results dropped; no operation was rewritten by the idealization, so there is nothing to
  preserve. Written here and in the modules this file imports: the specification, each kernel tile read at an entry, each
  result array assembled from its blocks, the kernel program's run with its results read through the segments, the
  reference's results read at an entry, and the comparison.
-/
import proofs.«167412_j4243427688518_2_alg».proof.Defs
import proofs.«167412_j4243427688518_2_alg».proof.Proof.Gen.Kernel
import proofs.«167412_j4243427688518_2_alg».proof.Proof.Gen.Kernel.Skeleton
import proofs.«167412_j4243427688518_2_alg».proof.Proof.Gen.Kernel.Launch
import proofs.«167412_j4243427688518_2_alg».proof.Proof.Gen.Kernel.Points
import proofs.«167412_j4243427688518_2_alg».proof.Proof.Gen.Kernel.Frame
import proofs.«167412_j4243427688518_2_alg».proof.Proof.Gen.KernelIdeal
import proofs.«167412_j4243427688518_2_alg».proof.Proof.Gen.KernelIdeal.Skeleton
import proofs.«167412_j4243427688518_2_alg».proof.Proof.Gen.KernelIdeal.Launch
import proofs.«167412_j4243427688518_2_alg».proof.Proof.Gen.KernelIdeal.Points
import proofs.«167412_j4243427688518_2_alg».proof.Proof.Gen.KernelIdeal.Frame
import proofs.«167412_j4243427688518_2_alg».proof.Proof.Gen.ReferenceIdeal
import proofs.«167412_j4243427688518_2_alg».proof.Proof.Gen.ReferenceIdeal.Run
import proofs.«167412_j4243427688518_2_alg».proof.Proof.Gen.ReferenceIdeal.Read
import proofs.«167412_j4243427688518_2_alg».proof.Proof.Gen.Pre_finite_inputs
import proofs.«167412_j4243427688518_2_alg».proof.Proof.KernelRun
import proofs.«167412_j4243427688518_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on x, W, A and B both programs end with the low-rank path of x, A, B and the row norms of
    the merged weight of W, A, B: the kernel program by its run read through the segments, the reference by its run
    read at an entry. -/
theorem algebraic : Cert.algebraic_KernelIdeal_ReferenceIdeal := by
  intro m ρ m' ρ' _ hagree
  refine ⟨fun c => Cert.Dora.loraOut (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Dora.colNorm (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.Dora.Run.run m ρ, ?_⟩
  refine (θ_run Cert.ReferenceIdeal.defs _ _).mono (fun _ h c => ?_) (Cert.ReferenceIdeal.Value.run (F := Ideal) m' ρ')
  obtain ⟨h1, h6, hargs⟩ := h c
  obtain ⟨e0, e1, e2, e3⟩ := hagree c
  refine ⟨h1.trans ?_, h6.trans ?_, hargs⟩
  · rw [Cert.ReferenceIdeal.Read.val_main_v1_eq, Cert.Dora.Ref.lora_eq, e0, e2, e3]
  · rw [Cert.ReferenceIdeal.Read.val_main_v6_eq, Cert.Dora.Ref.norm_eq, e1, e2, e3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
